-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x16384 : Shape := ⟨3, ![8, 256, 16384]⟩
abbrev S_ : Shape := ⟨0, ![]⟩

class Facts : Prop where
  bcast_S_S8x256x16384 : S_.BroadcastsInDim S8x256x16384 (![] : Fin 0 → Fin S8x256x16384.rank)
  reducesTo_S8x256x16384_S_d0_1_2 : S8x256x16384.ReducesTo [0, 1, 2] S_
  h_S_ : 0 < S_.numel

variable [Facts]

def fn {F : FTy → Type} [FloatOps F] (main_arg0 : FVec F S8x256x16384 .f32) : IVec S_ 1 :=
  let main_v0 : FVec F S8x256x16384 .f32 := Host.absf main_arg0
  let main_cst : FVec F S_ .f32 := constant S_ .f32 0x7F800000#32
  let main_v1 : FVec F S8x256x16384 .f32 := broadcastInDim S8x256x16384 ![] bcast_S_S8x256x16384 main_cst
  let main_v2 : IVec S8x256x16384 1 := cmpf .olt main_v0 main_v1
  let main_c : IVec S_ 1 := constantI S_ 1 1#1
  let main_v3 : IVec S_ 1 := (fun x v => Host.reduce IntOp.andi x v reducesTo_S8x256x16384_S_d0_1_2 h_S_) main_v2 main_c
  main_v3
-- ==== Kernel.lean ====
abbrev S8x256x16384 : Shape := ⟨3, ![8, 256, 16384]⟩
abbrev S8x64x65536 : Shape := ⟨3, ![8, 64, 65536]⟩
abbrev S8x256x128 : Shape := ⟨3, ![8, 256, 128]⟩
abbrev S8x64x512 : Shape := ⟨3, ![8, 64, 512]⟩
abbrev S8x64x4x128 : Shape := ⟨4, ![8, 64, 4, 128]⟩
abbrev S8x64x128x4 : Shape := ⟨4, ![8, 64, 128, 4]⟩

abbrev nBuf : Space → Nat
  | .hbm => 2
  | .vmem => 4
  | .smem => 0
  | _ => 0

abbrev bufTy : (tb : Table) → Fin (tcTables nBuf tb) → BufTy
  | .hbm, ⟨0, _⟩ => ⟨S8x256x16384, .f32⟩
  | .hbm, ⟨1, _⟩ => ⟨S8x64x65536, .f32⟩
  | .local _ .vmem, ⟨0, _⟩ => ⟨S8x256x128, .f32⟩
  | .local _ .vmem, ⟨1, _⟩ => ⟨S8x256x128, .f32⟩
  | .local _ .vmem, ⟨2, _⟩ => ⟨S8x64x512, .f32⟩
  | .local _ .vmem, ⟨3, _⟩ => ⟨S8x64x512, .f32⟩
  | _, _ => ⟨S8x256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x256x128_S8x256x128_0_0_0 : ∀ a, (![0, 0, 0] : Fin 3 → Nat) a + S8x256x128.size a ≤ S8x256x128.size a
  h_S8x256x128 : 0 < S8x256x128.numel
  shapeCasts_S8x256x128_S8x64x4x128 : S8x256x128.ShapeCasts S8x64x4x128
  transposes_S8x64x4x128_p0_1_3_2_S8x64x128x4 : S8x64x4x128.Transposes [0, 1, 3, 2] S8x64x128x4
  shapeCasts_S8x64x128x4_S8x64x512 : S8x64x128x4.ShapeCasts S8x64x512
  inb_S8x64x512_S8x64x512_0_0_0 : ∀ a, (![0, 0, 0] : Fin 3 → Nat) a + S8x64x512.size a ≤ S8x64x512.size a
  h_S8x64x512 : 0 < S8x64x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x128.size a ≤ S8x256x16384.size a
  hwx0_0 : ∀ i : grid0.Coords, EltTy.bits .f32 = 32 ∨ (Rect.block (s := S8x256x16384) S8x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x512.size a ≤ S8x64x65536.size a
  hwx0_1 : ∀ i : grid0.Coords, EltTy.bits .f32 = 32 ∨ (Rect.block (s := S8x64x65536) S8x64x512.size (cc0_transform_1 i) (hinb0_1 i)).WholeWords (EltTy.packing .f32)

variable [Facts₀]

abbrev win0_0 : Pipeline.Window sig grid0 :=
  Pipeline.Window.ofSpec (Memref.whole main_arg0) S8x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x256x16384 : Shape := ⟨3, ![8, 256, 16384]⟩
abbrev S8x64x4x16384 : Shape := ⟨4, ![8, 64, 4, 16384]⟩
abbrev S8x64x16384x4 : Shape := ⟨4, ![8, 64, 16384, 4]⟩
abbrev S8x64x65536 : Shape := ⟨3, ![8, 64, 65536]⟩

abbrev nBuf : Space → Nat
  | .hbm => 4
  | .vmem => 0
  | .smem => 0
  | _ => 0

abbrev bufTy : (tb : Table) → Fin (tcTables nBuf tb) → BufTy
  | .hbm, ⟨0, _⟩ => ⟨S8x256x16384, .f32⟩
  | .hbm, ⟨1, _⟩ => ⟨S8x64x4x16384, .f32⟩
  | .hbm, ⟨2, _⟩ => ⟨S8x64x16384x4, .f32⟩
  | .hbm, ⟨3, _⟩ => ⟨S8x64x65536, .f32⟩
  | _, _ => ⟨S8x256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S8x256x16384_S8x64x4x16384 : S8x256x16384.ShapeCasts S8x64x4x16384
  transposes_S8x64x4x16384_S8x64x16384x4_0_1_3_2 : S8x64x4x16384.Transposes [0, 1, 3, 2] S8x64x16384x4
  shapeCasts_S8x64x16384x4_S8x64x65536 : S8x64x16384x4.ShapeCasts S8x64x65536

variable [Facts₀]

class Facts : Prop extends Facts₀ where

variable [Facts]
-- ==== Proof.Shuffle.lean ====
/-
  The one-dimensional pixel shuffle with upscale factor 4, as a function on index sets.

  The input is an array over [8, 256, 16384] (batch, channel, length); the result is an array over
  [8, 64, 65536].  Result position (b, c, p) is a copy of input position (b, 4·c + p mod 4, p div 4): the 256 channels
  are read as 64 groups of 4, and the 4 members of a group are interleaved along the length axis, so that result
  position p = 4·l + j of group c comes from member j of the group at length l.  No arithmetic is done on the
  entries: the result is the input composed with a map of indices, `shuffled x = x ∘ srcOf`.

  The same rule on a tile of 128 consecutive lengths: a tile over [8, 256, 128] gives a tile over [8, 64, 512],
  position (b, c, q) copied from (b, 4·c + q mod 4, q div 4) (`tileSrcOf`).  Tile number t of the result, positions
  512·t … 512·t + 511, is the shuffle of tile number t of the input, lengths 128·t … 128·t + 127, because
  (512·t + q) div 4 = 128·t + q div 4 and (512·t + q) mod 4 = q mod 4.
-/
import Idealize.ShloMosaic.Lib.ValueIdx

namespace Cert.Shuffle

open Idealize.ShloMosaic Idealize.ShloMosaic.ValueIdx

/-- The input position that result position (b, c, p) is copied from: channel 4·c + p mod 4 at length p div 4. -/
def srcOf (b : Fin 8) (c : Fin 64) (p : Fin 65536) : (⟨3, ![8, 256, 16384]⟩ : Shape).Idx :=
  ix3 b (⟨c.val * 4 + p.val % 4, by have := c.isLt; omega⟩ : Fin 256) (⟨p.val / 4, by have := p.isLt; omega⟩ : Fin 16384)

/-- The pixel shuffle of a whole array: the input read at `srcOf`. -/
def shuffled {α : Type} (x : (⟨3, ![8, 256, 16384]⟩ : Shape).Idx → α) : (⟨3, ![8, 64, 65536]⟩ : Shape).Idx → α :=
  fun i => x (srcOf (i 0) (i 1) (i 2))

theorem shuffled_apply {α : Type} (x : (⟨3, ![8, 256, 16384]⟩ : Shape).Idx → α) (b : Fin 8) (c : Fin 64) (p : Fin 65536) :
    shuffled x (ix3 b c p) = x (srcOf b c p) := rfl

/-- The same rule inside one tile of 128 lengths: tile position (b, c, q) is copied from (b, 4·c + q mod 4, q div 4). -/
def tileSrcOf (b : Fin 8) (c : Fin 64) (q : Fin 512) : (⟨3, ![8, 256, 128]⟩ : Shape).Idx :=
  ix3 b (⟨c.val * 4 + q.val % 4, by have := c.isLt; omega⟩ : Fin 256) (⟨q.val / 4, by have := q.isLt; omega⟩ : Fin 128)

end Cert.Shuffle
-- ==== Proof.ReferenceShuffle.lean ====
/-
  The reference computes the pixel shuffle.

  The reference is three relayouts of the whole array: a reshape [8, 256, 16384] → [8, 64, 4, 16384] (channel
  4·c + j becomes group c, member j), a transpose of the last two axes to [8, 64, 16384, 4], and a reshape to
  [8, 64, 65536] (length l, member j becomes position 4·l + j).  Each relayout reads its operand at one index; composing
  the three index maps sends result position (b, c, p) to (b, c, p div 4, p mod 4), then to (b, c, p mod 4, p div 4), then to
  (b, 4·c + p mod 4, p div 4), which is `srcOf b c p`.  The reshapes are equalities of row-major positions, checked by
  linear arithmetic with division by the literal extents.
-/
import proofs.«128389_j52785148068480_2_alg».proof.Proof.Gen.ReferenceIdeal.Read
import proofs.«128389_j52785148068480_2_alg».proof.Proof.Shuffle
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Shuffle

variable {F : FTy → Type} [FloatOps F]

/-- The last reshape: position p of [.., 65536] is length p div 4, member p mod 4 of [.., 16384, 4]. -/
theorem idx_merge (b : Fin 8) (c : Fin 64) (p : Fin 65536) :
    idx_main_v2 (ix3 b c p)
      = ix4 b c (⟨p.val / 4, by have := p.isLt; omega⟩ : Fin 16384) (⟨p.val % 4, by omega⟩ : Fin 4) := by
  have hb := b.isLt; have hc := c.isLt; have hp := p.isLt
  funext a; apply Fin.ext
  match a with
  | ⟨0, _⟩ => show ((b.val * 64 + c.val) * 65536 + p.val) / 4194304 = b.val; omega
  | ⟨1, _⟩ => show ((b.val * 64 + c.val) * 65536 + p.val) / 65536 % 64 = c.val; omega
  | ⟨2, _⟩ => show ((b.val * 64 + c.val) * 65536 + p.val) / 4 % 16384 = p.val / 4; omega
  | ⟨3, _⟩ => show ((b.val * 64 + c.val) * 65536 + p.val) % 4 = p.val % 4; omega

/-- The transpose swaps length and member. -/
theorem idx_swap (b : Fin 8) (c : Fin 64) (l : Fin 16384) (j : Fin 4) :
    idx_main_v1 (ix4 b c l j) = ix4 b c j l := by
  funext a
  match a with
  | ⟨0, _⟩ => rfl
  | ⟨1, _⟩ => rfl
  | ⟨2, _⟩ => rfl
  | ⟨3, _⟩ => rfl

/-- The first reshape: group c, member j of [.., 64, 4, ..] is channel 4·c + j of [.., 256, ..]. -/
theorem idx_split (b : Fin 8) (c : Fin 64) (j : Fin 4) (l : Fin 16384) :
    idx_main_v0 (ix4 b c j l)
      = ix3 b (⟨c.val * 4 + j.val, by have := c.isLt; have := j.isLt; omega⟩ : Fin 256) l := by
  have hb := b.isLt; have hc := c.isLt; have hj := j.isLt; have hl := l.isLt
  funext a; apply Fin.ext
  match a with
  | ⟨0, _⟩ => show (((b.val * 64 + c.val) * 4 + j.val) * 16384 + l.val) / 4194304 = b.val; omega
  | ⟨1, _⟩ => show (((b.val * 64 + c.val) * 4 + j.val) * 16384 + l.val) / 16384 % 256 = c.val * 4 + j.val; omega
  | ⟨2, _⟩ => show (((b.val * 64 + c.val) * 4 + j.val) * 16384 + l.val) % 16384 = l.val; omega

/-- The reference's result is the pixel shuffle of its argument, at any float instance. -/
theorem reference_eq (x0 : (⟨S8x256x16384, .f32⟩ : BufTy).Contents (Elt F)) :
    val_main_v2 (F := F) x0 = shuffled x0 := by
  funext i
  obtain ⟨b, c, p, rfl⟩ : ∃ (b : Fin 8) (c : Fin 64) (p : Fin 65536), i = ix3 b c p := ⟨i 0, i 1, i 2, eq_ix3 i⟩
  rw [val_main_v2_apply, val_main_v1_apply, val_main_v0_apply, idx_merge, idx_swap, idx_split]
  rfl

end Cert.ReferenceIdeal.RefValue

end
-- ==== Proof.TileShuffle.lean ====
/-
  The kernel body computes the pixel shuffle of one tile.

  The body loads its whole input tile over [8, 256, 128], reshapes it to [8, 64, 4, 128], transposes the last two axes
  to [8, 64, 128, 4], reshapes to [8, 64, 512] and stores that whole.  Read at tile position (b, c, q) the three
  relayouts compose exactly as for the whole array, with 128 lengths in place of 16384: (b, c, q) comes from
  (b, c, q div 4, q mod 4), that from (b, c, q mod 4, q div 4), that from (b, 4·c + q mod 4, q div 4) = `tileSrcOf b c q`.
-/
import proofs.«128389_j52785148068480_2_alg».proof.Proof.Gen.KernelIdeal.Skeleton
import proofs.«128389_j52785148068480_2_alg».proof.Proof.Shuffle
import Idealize.ShloMosaic.Lib.ValueIdx
import Idealize.ShloMosaic.Lib.Pipeline.Value

noncomputable section

namespace Cert.KernelIdeal.TileValue

open Cert.KernelIdeal Cert.KernelIdeal.Gen Idealize.ShloMosaic Idealize.ShloMosaic.ValueIdx Cert.Shuffle

variable {F : FTy → Type} [FloatOps F]

/-- The stored tile at position (b, c, q) is the loaded tile at `tileSrcOf b c q`. -/
theorem tile_apply (x0 : Vec F S8x256x128 .f32) (b : Fin 8) (c : Fin 64) (q : Fin 512) :
    k0_pay1 x0 (ix3 b c q) = x0 (tileSrcOf b c q) := by
  have hb := b.isLt; have hc := c.isLt; have hq := q.isLt
  show shapeCast S8x64x512 (transpose S8x64x128x4 [0, 1, 3, 2] (shapeCast S8x64x4x128 x0 shapeCasts_S8x256x128_S8x64x4x128)
      transposes_S8x64x4x128_p0_1_3_2_S8x64x128x4) shapeCasts_S8x64x128x4_S8x64x512 (ix3 b c q) = _
  refine (shapeCast_apply _ shapeCasts_S8x64x128x4_S8x64x512 (ix3 b c q)
    (ix4 b c (⟨q.val / 4, by omega⟩ : Fin 128) (⟨q.val % 4, by omega⟩ : Fin 4)) ?_).trans ?_
  · rw [Shape.rowMajor_val_four, Shape.rowMajor_val_three]
    show ((b.val * 64 + c.val) * 128 + q.val / 4) * 4 + q.val % 4 = (b.val * 64 + c.val) * 512 + q.val
    omega
  refine (transpose_apply [0, 1, 3, 2] _ transposes_S8x64x4x128_p0_1_3_2_S8x64x128x4
    (ix4 b c (⟨q.val / 4, by omega⟩ : Fin 128) (⟨q.val % 4, by omega⟩ : Fin 4))
    (ix4 b c (⟨q.val % 4, by omega⟩ : Fin 4) (⟨q.val / 4, by omega⟩ : Fin 128))
    (fun a => match a with
      | ⟨0, _⟩ => rfl
      | ⟨1, _⟩ => rfl
      | ⟨2, _⟩ => rfl
      | ⟨3, _⟩ => rfl)).trans ?_
  refine shapeCast_apply x0 shapeCasts_S8x256x128_S8x64x4x128
    (ix4 b c (⟨q.val % 4, by omega⟩ : Fin 4) (⟨q.val / 4, by omega⟩ : Fin 128)) (tileSrcOf b c q) ?_
  rw [Shape.rowMajor_val_three, Shape.rowMajor_val_four]
  show (b.val * 256 + (c.val * 4 + q.val % 4)) * 128 + q.val / 4 = ((b.val * 64 + c.val) * 4 + q.val % 4) * 128 + q.val / 4
  omega

end Cert.KernelIdeal.TileValue

end
-- ==== Proof.ArrayShuffle.lean ====
/-
  The kernel's result array is the pixel shuffle of its argument.

  The grid has 128 points.  At point t the input tile is lengths 128·t … 128·t + 127 of the argument (all batches, all
  channels), and the tile written back is positions 512·t … 512·t + 511 of the result (all batches, all groups).  The body
  turns the input tile into its tile shuffle (`tile_apply`), so what point t writes back at tile position (b, c, q) is the
  argument at (b, 4·c + q mod 4, 128·t + q div 4).  The whole-array shuffle at the corresponding result position
  (b, c, 512·t + q) reads the argument at (b, 4·c + (512·t + q) mod 4, (512·t + q) div 4), which is the same position because
  512 is a multiple of 4.  So every written tile is the matching tile of the one function `shuffled` of the argument.
  The 128 result tiles partition the length-65536 axis — position p lies in tile p div 512 — so the result array after the
  run is `shuffled` of the argument everywhere.
-/
import proofs.«128389_j52785148068480_2_alg».proof.Proof.Gen.KernelIdeal.Value
import proofs.«128389_j52785148068480_2_alg».proof.Proof.TileShuffle

noncomputable section

namespace Cert.KernelIdeal.ArrayValue

open Cert.KernelIdeal Cert.KernelIdeal.Gen Idealize.ShloMosaic Idealize.ShloMosaic.TcCoe Idealize.SL.Sem
open Idealize.ShloMosaic.ValueIdx Cert.Shuffle
open Idealize.ShloMosaic.Pipeline (Dat)

variable {F : FTy → Type} [FloatOps F]
variable (m : (ℓ : Loc nD τ sig) → Buf (Elt F) ℓ) (ρ : Dev nD → PrngReg)

/-- The body's loads and its store start at the tile's origin. -/
theorem origin : (![0, 0, 0] : Fin 3 → Nat) = fun _ => 0 := funext fun a => by fin_cases a <;> rfl

/-- Where the tiles sit: at point t both windows take every batch and every channel (block index 0 on the first two
    axes) and block number t along the length axis. -/
theorem tile_index : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val :=
  (by decide +kernel : ∀ t : Fin grid0.N, _)

/-- What point t writes back is tile t of the shuffle of the argument. -/
theorem flushed_eq (c : Dev nD) (t : Fin cfg0.N) :
    (dats m 0 c).flushed 1 t = ((cfg0.win 1).blk t).view.read (Elt F) (shuffled (V m c main_arg0)) := by
  rw [Cert.KernelIdeal.Value.flushed1]
  unfold out0_1
  rw [View.canon_unit_zero origin]
  simp only [View.ld_unit_zero (S := S8x256x128) origin]
  obtain ⟨e0, e1, e2, e3, e4, e5⟩ := tile_index t
  refine funext fun (y : S8x64x512.Idx) => ?_
  obtain ⟨b, g, q, rfl⟩ : ∃ (b : Fin 8) (g : Fin 64) (q : Fin 512), y = ix3 b g q := ⟨y 0, y 1, y 2, eq_ix3 y⟩
  have hb := b.isLt; have hg := g.isLt; have hq := q.isLt
  show k0_pay1 (iblk m c 0 t) (ix3 b g q) = _
  refine (Cert.KernelIdeal.TileValue.tile_apply (iblk m c 0 t) b g q).trans ?_
  -- both sides read the argument; it remains that they read it at the same position
  refine congrArg (V m c main_arg0)
    (?_ : ((cfg0.win 0).blk t).view.emb (tileSrcOf b g q)
        = srcOf ((((cfg0.win 1).blk t).view.emb (ix3 b g q)) 0) ((((cfg0.win 1).blk t).view.emb (ix3 b g q)) 1)
            ((((cfg0.win 1).blk t).view.emb (ix3 b g q)) 2))
  funext a; apply Fin.ext
  match a with
  | ⟨0, _⟩ =>
    show win0_0.index t (0 : Fin 3) * 8 + 1 * b.val = win0_1.index t (0 : Fin 3) * 8 + 1 * b.val
    omega
  | ⟨1, _⟩ =>
    show win0_0.index t (1 : Fin 3) * 256 + 1 * (g.val * 4 + q.val % 4)
      = (win0_1.index t (1 : Fin 3) * 64 + 1 * g.val) * 4 + (win0_1.index t (2 : Fin 3) * 512 + 1 * q.val) % 4
    omega
  | ⟨2, _⟩ =>
    show win0_0.index t (2 : Fin 3) * 128 + 1 * (q.val / 4) = (win0_1.index t (2 : Fin 3) * 512 + 1 * q.val) / 4
    omega

/-- A result position is in point t's tile iff each coordinate is in the tile's range on its axis. -/
theorem mem_tile (t : Fin cfg0.N) (i : S8x64x65536.Idx) :
    i ∈ ((cfg0.win 1).blk t).view.set ↔ ∀ a : Fin 3, win0_1.index t a * S8x64x512.size a ≤ (i a).val
      ∧ (i a).val < win0_1.index t a * S8x64x512.size a + S8x64x512.size a := by
  show i ∈ ((View.whole main_v0).slice (win0_1.rect t)).set ↔ _
  rw [View.set_slice_whole, Rect.mem_set_unit]
  exact Iff.rfl

/-- The tiles cover the result: position p along the length axis lies in tile p div 512. -/
theorem covered (i : S8x64x65536.Idx) :
    ∃ t : Fin cfg0.N, (cfg0.win 1).flush t = true ∧ i ∈ ((cfg0.win 1).blk t).view.set := by
  have h0 : (i 0).val < 8 := (i 0).isLt
  have h1 : (i 1).val < 64 := (i 1).isLt
  have h2 : (i 2).val < 65536 := (i 2).isLt
  have hN : grid0.N = 128 := N_0
  obtain ⟨t, ht⟩ : ∃ t : Fin cfg0.N, t.val = (i 2).val / 512 :=
    ⟨⟨(i 2).val / 512, by show (i 2).val / 512 < grid0.N; omega⟩, rfl⟩
  obtain ⟨e0, e1, e2, e3, e4, e5⟩ := tile_index t
  refine ⟨t, flush0_1 t, ?_⟩
  rw [mem_tile]
  intro a
  match a with
  | ⟨0, _⟩ =>
    show win0_1.index t (0 : Fin 3) * 8 ≤ (i 0).val ∧ (i 0).val < win0_1.index t (0 : Fin 3) * 8 + 8
    omega
  | ⟨1, _⟩ =>
    show win0_1.index t (1 : Fin 3) * 64 ≤ (i 1).val ∧ (i 1).val < win0_1.index t (1 : Fin 3) * 64 + 64
    omega
  | ⟨2, _⟩ =>
    show win0_1.index t (2 : Fin 3) * 512 ≤ (i 2).val ∧ (i 2).val < win0_1.index t (2 : Fin 3) * 512 + 512
    omega

/-- The result array after the run is the shuffle of the argument as launched. -/
theorem final (c : Dev nD) :
    (dats m 0 c).arrAt 1 cfg0.N = shuffled (m ((c : Thread nD τ).loc main_arg0)) :=
  (dats m 0 c).arrAt_eq_of_cover 1 (shuffled (V m c main_arg0)) (fun t _ => flushed_eq m c t) covered

/-- Every weakly fair execution of the kernel's program ends with the result array at the shuffle of the argument and
    the argument unchanged. -/
theorem run : θ_run defs (onTc (τ := τ) (main (F := F))) ⟨m, fun _ => 0, ρ⟩ fun r => ∀ c : Dev nD,
      r.2.mem ((c : Thread nD τ).loc main_v0) = shuffled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.ArrayValue

end
-- ==== Proof.lean ====
/-
  The kernel and its reference compute the same one-dimensional pixel shuffle (upscale factor 4).

  Both take x over [8, 256, 16384] to an array over [8, 64, 65536] whose position (b, c, p) is x at
  (b, 4·c + p mod 4, p div 4): the 256 channels are 64 groups of 4, and a group's 4 members are interleaved along the
  length axis.  Neither program does arithmetic on the entries, so the two results are equal for every argument with
  entries in the extended reals, finite or not; the precondition is not used.

  The reference is a reshape, a transpose of the last two axes and a reshape of the whole array; read at an index, the
  three index maps compose to the shuffle's (`ReferenceShuffle`).  The kernel cuts the length axis into 128 tiles of
  128 lengths; at grid point t its body applies the same three relayouts to the input tile and writes the 512-position
  result tile number t (`TileShuffle`).  Since 512·t + q has the same remainder mod 4 as q and quotient 128·t + q div 4,
  each written tile is the matching tile of the whole-array shuffle, and the 128 tiles partition the result
  (`ArrayShuffle`).

  The three frame claims are the programs' runs with the value forgotten; the idealization rewrote nothing, so there is
  nothing to preserve.
-/
import proofs.«128389_j52785148068480_2_alg».proof.Defs
import proofs.«128389_j52785148068480_2_alg».proof.Proof.Gen.Kernel
import proofs.«128389_j52785148068480_2_alg».proof.Proof.Gen.Kernel.Skeleton
import proofs.«128389_j52785148068480_2_alg».proof.Proof.Gen.Kernel.Launch
import proofs.«128389_j52785148068480_2_alg».proof.Proof.Gen.Kernel.Points
import proofs.«128389_j52785148068480_2_alg».proof.Proof.Gen.Kernel.Frame
import proofs.«128389_j52785148068480_2_alg».proof.Proof.Gen.KernelIdeal
import proofs.«128389_j52785148068480_2_alg».proof.Proof.Gen.KernelIdeal.Skeleton
import proofs.«128389_j52785148068480_2_alg».proof.Proof.Gen.KernelIdeal.Launch
import proofs.«128389_j52785148068480_2_alg».proof.Proof.Gen.KernelIdeal.Points
import proofs.«128389_j52785148068480_2_alg».proof.Proof.Gen.KernelIdeal.Frame
import proofs.«128389_j52785148068480_2_alg».proof.Proof.Gen.ReferenceIdeal
import proofs.«128389_j52785148068480_2_alg».proof.Proof.Gen.Pre_finite_inputs
import proofs.«128389_j52785148068480_2_alg».proof.Proof.Gen.KernelIdeal.Value
import proofs.«128389_j52785148068480_2_alg».proof.Proof.Gen.ReferenceIdeal.Run
import proofs.«128389_j52785148068480_2_alg».proof.Proof.Gen.ReferenceIdeal.Read
import proofs.«128389_j52785148068480_2_alg».proof.Proof.ReferenceShuffle
import proofs.«128389_j52785148068480_2_alg».proof.Proof.ArrayShuffle
import Idealize.ShloMosaic.Adequacy
import Idealize.ShloMosaic.Init

noncomputable section

namespace Cert.Proof

open Idealize.ShloMosaic Idealize.ShloMosaic.TcCoe Idealize.SL.Sem Cert.Shuffle

/-- The word-level kernel runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From equal arguments both programs end with the shuffle of the argument in their result arrays. -/
theorem algebraic : Cert.algebraic_KernelIdeal_ReferenceIdeal := by
  intro m ρ m' ρ' _ hagree
  refine ⟨fun c => shuffled (m ((c.tc : Thread Cert.KernelIdeal.nD Cert.KernelIdeal.τ).loc Cert.KernelIdeal.main_arg0)),
    Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
